-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 66
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x128, .bf16⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000x128, .bf16⟩
  | .hbm, ⟨42, _⟩ => ⟨S1700000x128, .f32⟩
  | .hbm, ⟨43, _⟩ => ⟨S_, .f32⟩
  | .hbm, ⟨44, _⟩ => ⟨S100000x128, .f32⟩
  | .hbm, ⟨45, _⟩ => ⟨S1700000x1, .i32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .bf16⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .bf16⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x1, .f32⟩
  | .local _ .vmem, ⟨13, _⟩ => ⟨S4000x1, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bcast_S100000x1_S100000x128_0_1 : S100000x1.BroadcastsInDim S100000x128 (![0, 1] : Fin 2 → Fin S100000x128.rank)
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v31) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x128, .f32⟩
  | .hbm, ⟨41, _⟩ => ⟨S_, .f32⟩
  | .hbm, ⟨42, _⟩ => ⟨S100000x128, .f32⟩
  | .hbm, ⟨43, _⟩ => ⟨S1700000x1, .i32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel's run with its RESULT read off, not only its arguments.

  @main is four segments: the host operations before the first region, the first region, the host operations between
  the regions, the second region. Every weakly fair execution ends with every unscoped buffer at the last boundary's
  contents; the result buffer is the second region's output array, so it ends holding what that region's write-backs
  leave, and the arguments end as launched.
-/
import proofs.«143853_j52501680226728_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and each argument as launched. -/
theorem run : θ_run defs (onTc (τ := τ) (main (F := F))) ⟨m, fun _ => 0, ρ⟩ (fun r => ∀ c : Dev nD,
      r.2.mem ((c.tc : Thread nD τ).loc main_v47) = W4 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v47 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- The result buffer is the second region's output window's array: it ends at what that region's write-backs leave. -/
theorem result_eq (c : Dev nD) :
    W4 m ρ c (Proc.devRef .tc main_v47) = (dat1 (V3 m ρ) c).arrAt 4 cfg1.N :=
  W4_arr m ρ c 4

/-- The first region's output array as the host operations between the regions find it. -/
theorem mid_eq (c : Dev nD) :
    W2 m ρ c (Proc.devRef .tc main_v33) = (dat0 (V1 m ρ) c).arrAt 5 cfg0.N :=
  W2_arr m ρ c 5

end Cert.KernelIdeal.Named

end
-- ==== Proof.Spelling.lean ====
/-
  Two spellings of the same array on the host side.

  The kernel's wrapper writes a per-node column as a reshape [n] → [n, 1] and a bias row as a reshape [128] → [1, 128];
  the reference writes both as broadcasts into the new unit axis. Each entry of either is the one entry of the operand
  with the same remaining coordinate, so the arrays are equal. The wrapper also narrows the gathered table to bf16 and
  widens the gathered rows back; on the extended reals a change of format is the identity, so the gather of the
  narrowed table, widened, is the gather of the table.
-/
import Idealize.ShloMosaic.PureOps.Ideal
import Idealize.ShloMosaic.Lib.ValueIdx
import Idealize.ShloMosaic.Lib.ValueLayout
import Idealize.ShloMosaic.Lib.Pipeline.Value

noncomputable section

namespace Cert.Spelling

open Idealize.ShloMosaic Idealize.ShloMosaic.ValueIdx

variable {α : Type}

/-- A length-`a` array reshaped to a column [a, 1] is its broadcast along a new trailing unit axis. -/
theorem column_eq {a : ℕ} (ha : a ≠ 1) (x : (⟨1, ![a]⟩ : Shape).Idx → α)
    (hc : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x hc = broadcastInDim ⟨2, ![a, 1]⟩ (![0] : Fin 1 → Fin 2) hb x := by
  funext j
  obtain ⟨p, u, rfl⟩ : ∃ (p : Fin a) (u : Fin 1), j = ix2 p u := ⟨j 0, j 1, eq_ix2 j⟩
  have hu : u.val = 0 := by omega
  rw [shapeCast_apply x hc (ix2 p u) (ix1 p) (by
      rw [Shape.rowMajor_val_two, Shape.rowMajor_val_one]
      show p.val = p.val * 1 + u.val
      omega),
    broadcastInDim_apply (![0] : Fin 1 → Fin 2) hb x (ix2 p u) (ix1 p) (fun d => by
      match d with
      | ⟨0, _⟩ => show p.val = if a = 1 then 0 else p.val; rw [if_neg ha])]

/-- A length-`a` array reshaped to a row [1, a] is its broadcast along a new leading unit axis. -/
theorem row_eq {a : ℕ} (ha : a ≠ 1) (x : (⟨1, ![a]⟩ : Shape).Idx → α)
    (hc : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x hc = broadcastInDim ⟨2, ![1, a]⟩ (![1] : Fin 1 → Fin 2) hb x := by
  funext j
  obtain ⟨u, p, rfl⟩ : ∃ (u : Fin 1) (p : Fin a), j = ix2 u p := ⟨j 0, j 1, eq_ix2 j⟩
  rw [shapeCast_a_1a_apply x hc u p,
    broadcastInDim_apply (![1] : Fin 1 → Fin 2) hb x (ix2 u p) (ix1 p) (fun d => by
      match d with
      | ⟨0, _⟩ => show p.val = if a = 1 then 0 else p.val; rw [if_neg ha])]

/-- Gathering rows of a table narrowed to another float format, then widening them back, is gathering rows of the
    table: both changes of format are the identity on the extended reals. -/
theorem gather_formats {s si t : Shape} {w : ℕ} {φ ψ : FTy} (d : GatherDims s si t) (x : FVec Ideal s φ) (idx : IVec si w)
    (h₁ : ψ.bits < φ.bits) (h₂ : ψ.bits < φ.bits) :
    (extf φ (Host.gather d (truncf ψ x h₁ : FVec Ideal s ψ) idx : FVec Ideal t ψ) h₂ : FVec Ideal t φ)
      = Host.gather d x idx := rfl

end Cert.Spelling

end
-- ==== Proof.Layer.lean ====
/-
  The dense stage of one graph-convolution layer, as ONE function of whole arrays over the extended reals.

  For a node `r` and an output feature `c`, with `agg` the aggregated neighbour sums ([100000, 128]), `nin` the
  destination-side degree factor ([100000, 1]), `W` the weights ([128, 128]) and `b` the bias as a row ([1, 128]):

      dense agg nin W b (r, c) = (∑ k < 128, agg (r, k) · nin (r, 0) · W (k, c)) + b (0, c)

  and the first layer's stage is that times the source-side factor `nout (r, 0)`, ready for the next gather.
  Nothing here needs finiteness: the sum, the product and the order of their operands are the same on both sides of
  the claim, so no law of the extended reals beyond reading an expression at an index is used.
-/
import Idealize.ShloMosaic.PureOps.Ideal
import Idealize.ShloMosaic.Lib.ValueIdx

noncomputable section

namespace Cert.Layer

open Idealize.ShloMosaic Idealize.ShloMosaic.ValueIdx

/-- The arrays' shapes: node features, a per-node column, the weights, the bias row. -/
abbrev Snd : Shape := ⟨2, ![100000, 128]⟩
abbrev Sn1 : Shape := ⟨2, ![100000, 1]⟩
abbrev Sdd : Shape := ⟨2, ![128, 128]⟩
abbrev S1d : Shape := ⟨2, ![1, 128]⟩

/-- The dense stage at node `r`, feature `c`: the degree-scaled row of `agg` against column `c` of `W`, plus the bias. -/
def denseAt (agg : Snd.Idx → EReal) (nin : Sn1.Idx → EReal) (W : Sdd.Idx → EReal) (b : S1d.Idx → EReal)
    (r : Fin 100000) (c : Fin 128) : EReal :=
  (∑ k : Fin 128, agg (ix2 r k) * nin (ix2 r (0 : Fin 1)) * W (ix2 k c)) + b (ix2 (0 : Fin 1) c)

/-- The dense stage as a whole array. -/
def dense (agg : Snd.Idx → EReal) (nin : Sn1.Idx → EReal) (W : Sdd.Idx → EReal) (b : S1d.Idx → EReal) : Snd.Idx → EReal :=
  fun i => denseAt agg nin W b (i 0) (i 1)

/-- The first layer's dense stage, already multiplied by the source-side factor for the next layer's gather. -/
def denseScaled (agg : Snd.Idx → EReal) (nin nout : Sn1.Idx → EReal) (W : Sdd.Idx → EReal) (b : S1d.Idx → EReal) :
    Snd.Idx → EReal :=
  fun i => denseAt agg nin W b (i 0) (i 1) * nout (ix2 (i 0) (0 : Fin 1))

end Cert.Layer

end
-- ==== Proof.RefLayer.lean ====
/-
  The reference's two dense stages, read at an index, are the dense-layer function of their operand stages.

  The reference computes `(agg · nin) @ W + b` by a broadcast of the [n, 1] column, an elementwise product, a
  `dot_general` contracting the feature axis, a broadcast of the bias row and a sum; for the first layer it then
  multiplies by the broadcast source-side column. Reading each of these at an index `(r, c)` gives
  `(∑ k, agg (r, k) · nin (r, 0) · W (k, c)) + b (0, c)`, times `nout (r, 0)` for the first layer. The aggregated
  array `agg` (a scatter of a gather) is left unopened: it is the same stage on both sides of the claim.
-/
import proofs.«143853_j52501680226728_2_alg».proof.Proof.Gen.ReferenceIdeal.Read
import proofs.«143853_j52501680226728_2_alg».proof.Proof.Layer

noncomputable section

namespace Cert.RefLayer

open Idealize.ShloMosaic Idealize.ShloMosaic.ValueIdx Cert.ReferenceIdeal Cert.ReferenceIdeal.Read Cert.Layer

/-! ## Where each operand is read: the composed index functions as coordinates -/

theorem lidx32 (i : S100000x128.Idx) (k : Fin 128) : lidx_main_v32 i k = ix2 (i 0) k :=
  funext fun a => by match a with | ⟨0, _⟩ => rfl | ⟨1, _⟩ => rfl
theorem ridx32 (i : S100000x128.Idx) (k : Fin 128) : ridx_main_v32 i k = ix2 k (i 1) :=
  funext fun a => by match a with | ⟨0, _⟩ => rfl | ⟨1, _⟩ => rfl
theorem lidx50 (i : S100000x128.Idx) (k : Fin 128) : lidx_main_v50 i k = ix2 (i 0) k :=
  funext fun a => by match a with | ⟨0, _⟩ => rfl | ⟨1, _⟩ => rfl
theorem ridx50 (i : S100000x128.Idx) (k : Fin 128) : ridx_main_v50 i k = ix2 k (i 1) :=
  funext fun a => by match a with | ⟨0, _⟩ => rfl | ⟨1, _⟩ => rfl
/-- A per-node column broadcast along the features is read at the node's row. -/
theorem col30 (i : S100000x128.Idx) : idx_main_v30 i = ix2 (i 0) (0 : Fin 1) :=
  funext fun a => by match a with | ⟨0, _⟩ => rfl | ⟨1, _⟩ => rfl
theorem col36 (i : S100000x128.Idx) : idx_main_v36 i = ix2 (i 0) (0 : Fin 1) :=
  funext fun a => by match a with | ⟨0, _⟩ => rfl | ⟨1, _⟩ => rfl
theorem col48 (i : S100000x128.Idx) : idx_main_v48 i = ix2 (i 0) (0 : Fin 1) :=
  funext fun a => by match a with | ⟨0, _⟩ => rfl | ⟨1, _⟩ => rfl
/-- The bias row broadcast along the nodes is read at the feature's column. -/
theorem row34 (i : S100000x128.Idx) : idx_main_v34 i = ix2 (0 : Fin 1) (i 1) :=
  funext fun a => by match a with | ⟨0, _⟩ => rfl | ⟨1, _⟩ => rfl
theorem row52 (i : S100000x128.Idx) : idx_main_v52 i = ix2 (0 : Fin 1) (i 1) :=
  funext fun a => by match a with | ⟨0, _⟩ => rfl | ⟨1, _⟩ => rfl

/-! ## The two stages -/

/-- The first layer's output, pre-multiplied by the source-side factor, is `denseScaled` of the aggregated sums, the
    two degree columns, the weights and the bias row. -/
theorem stage1 (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    val_main_v37 (F := Ideal) x0 x1 x2 x3 x4
      = denseScaled (val_main_v29 (F := Ideal) x0 x1 x2) (val_main_v17 (F := Ideal) x2) (val_main_v13 (F := Ideal) x1) x3
          (val_main_v33 (F := Ideal) x4) := by
  funext i
  rw [val_main_v37_apply, val_main_v35_apply, val_main_v32_apply, val_main_v34_apply, val_main_v36_apply]
  have hrow : ∀ k : Fin 128, val_main_v31 (F := Ideal) x0 x1 x2 (ix2 (i 0) k)
      = val_main_v29 (F := Ideal) x0 x1 x2 (ix2 (i 0) k) * val_main_v17 (F := Ideal) x2 (ix2 (i 0) (0 : Fin 1)) := fun k => by
    rw [val_main_v31_apply, val_main_v30_apply, col30]; rfl
  simp only [lidx32, ridx32, col36, row34, Ideal.mulf_def, Ideal.addf_def]
  unfold denseScaled denseAt
  refine congrArg₂ (· * ·) (congrArg₂ (· + ·) (Finset.sum_congr rfl fun k _ => ?_) rfl) rfl
  exact congrArg (· * x3 (ix2 k (i 1))) (hrow k)

/-- The second layer's output is `dense` of the second aggregated sums, the destination-side column, the second
    weights and bias row. -/
theorem stage2 (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v53 (F := Ideal) x0 x1 x2 x3 x4 x5 x6
      = dense (val_main_v47 (F := Ideal) x0 x1 x2 x3 x4) (val_main_v17 (F := Ideal) x2) x5 (val_main_v51 (F := Ideal) x6) := by
  funext i
  rw [val_main_v53_apply, val_main_v50_apply, val_main_v52_apply]
  have hrow : ∀ k : Fin 128, val_main_v49 (F := Ideal) x0 x1 x2 x3 x4 (ix2 (i 0) k)
      = val_main_v47 (F := Ideal) x0 x1 x2 x3 x4 (ix2 (i 0) k) * val_main_v17 (F := Ideal) x2 (ix2 (i 0) (0 : Fin 1)) := fun k => by
    rw [val_main_v49_apply, val_main_v48_apply, col48]; rfl
  simp only [lidx50, ridx50, row52, Ideal.addf_def]
  unfold dense denseAt
  refine congrArg₂ (· + ·) (Finset.sum_congr rfl fun k _ => ?_) rfl
  exact congrArg (· * x5 (ix2 k (i 1))) (hrow k)

end Cert.RefLayer

end
-- ==== Proof.Body.lean ====
/-
  What each kernel body computes, read at an entry of its output block, over the extended reals.

  A block is 4000 nodes by 128 features. With `a` the block of aggregated sums, `u` and `v` the blocks of the two
  degree columns ([4000, 1]), `w` the weights and `b` the bias row, the first body's payload at `(p, q)` is

      ((∑ k < 128, a (p, k) · u (p, 0) · w (k, q)) + b (0, q)) · v (p, 0)

  and the second body's is the same without the last factor. The changes of float format are the identity on the
  extended reals; the matrix product into a zero accumulator is the plain sum over the contracted feature axis.
-/
import proofs.«143853_j52501680226728_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.Body

open Idealize.ShloMosaic Idealize.ShloMosaic.ValueIdx Cert.KernelIdeal Cert.KernelIdeal.Gen

/-! ## The three operations that are not pointwise, each read at `(p, q)` -/

/-- A [4000, 1] column spread along the 128 features is read at its row. -/
theorem column_apply {α : Type} (v : S4000x1.Idx → α) (p : Fin 4000) (q : Fin 128) :
    broadcastTo S4000x128 v broadcasts_S4000x1_S4000x128 (ix2 p q) = v (ix2 p (0 : Fin 1)) :=
  broadcastTo_apply v broadcasts_S4000x1_S4000x128 (ix2 p q) (ix2 p (0 : Fin 1)) (fun a => by
    match a with
    | ⟨0, _⟩ => show p.val = if (4000 : Nat) = 1 then 0 else p.val; rw [if_neg (by decide)]
    | ⟨1, _⟩ => show 0 = if (1 : Nat) = 1 then 0 else q.val; rw [if_pos rfl])

/-- A [1, 128] row spread along the 4000 nodes is read at its column. -/
theorem row_apply {α : Type} (v : S1x128.Idx → α) (p : Fin 4000) (q : Fin 128) :
    broadcastTo S4000x128 v broadcasts_S1x128_S4000x128 (ix2 p q) = v (ix2 (0 : Fin 1) q) :=
  broadcastTo_apply v broadcasts_S1x128_S4000x128 (ix2 p q) (ix2 (0 : Fin 1) q) (fun a => by
    match a with
    | ⟨0, _⟩ => show 0 = if (1 : Nat) = 1 then 0 else p.val; rw [if_pos rfl]
    | ⟨1, _⟩ => show q.val = if (128 : Nat) = 1 then 0 else q.val; rw [if_neg (by decide)])

local notation "dd" => dot_S4000x128_S128x128_S4000x128_1_0_0_1_n_n

theorem lhs_row (i : S4000x128.Idx) (k : (dd).contr.Idx) : ((dd).lhsIdx i k 0).val = (i 0).val := by
  unfold DotDims.lhsIdx
  rw [dif_neg (show ¬(0 : Fin S4000x128.rank) ∈ (dd).lhsBatch by decide),
    dif_pos (show (0 : Fin S4000x128.rank) ∈ (dd).lhsNonContracting by decide)]
  rfl
theorem lhs_contr (i : S4000x128.Idx) (k : (dd).contr.Idx) : ((dd).lhsIdx i k 1).val = (k ⟨0, by decide⟩).val :=
  (dd).lhsIdx_val_of_single rfl i k
theorem rhs_contr (i : S4000x128.Idx) (k : (dd).contr.Idx) : ((dd).rhsIdx i k 0).val = (k ⟨0, by decide⟩).val :=
  (dd).rhsIdx_val_of_single rfl i k
theorem rhs_col (i : S4000x128.Idx) (k : (dd).contr.Idx) : ((dd).rhsIdx i k 1).val = (i 1).val := by
  unfold DotDims.rhsIdx
  rw [dif_neg (show ¬(1 : Fin S128x128.rank) ∈ (dd).rhsBatch by decide),
    dif_pos (show (1 : Fin S128x128.rank) ∈ (dd).rhsNonContracting by decide)]
  rfl

/-- The block's matrix product into a zero accumulator, at `(p, q)`: the sum over the 128 contracted features of row
    `p` of the left operand against column `q` of the right. -/
theorem matmul_apply {φ₁ φ₂ : FTy} (a : FVec Ideal S4000x128 φ₁) (w : FVec Ideal S128x128 φ₂) (p : Fin 4000) (q : Fin 128) :
    matmul dd none a w (constant S4000x128 .f32 0x00000000#32) (ix2 p q) = ∑ k : Fin 128, a (ix2 p k) * w (ix2 k q) := by
  show FloatOps.matmul dd none a w (constant S4000x128 .f32 0x00000000#32) (ix2 p q) = _
  rw [Ideal.matmul_constant_zero_apply, ← Equiv.sum_comp (contrEquiv1 dd 128 rfl rfl).symm]
  refine Finset.sum_congr rfl fun k _ => ?_
  have hk := contrEquiv1_symm_val dd 128 rfl rfl k
  have el : (dd).lhsIdx (ix2 p q) ((contrEquiv1 dd 128 rfl rfl).symm k) = ix2 p k := funext fun d => Fin.ext (by
    match d with
    | ⟨0, _⟩ => exact lhs_row _ _
    | ⟨1, _⟩ => exact (lhs_contr _ _).trans hk)
  have er : (dd).rhsIdx (ix2 p q) ((contrEquiv1 dd 128 rfl rfl).symm k) = ix2 k q := funext fun d => Fin.ext (by
    match d with
    | ⟨0, _⟩ => exact (rhs_contr _ _).trans hk
    | ⟨1, _⟩ => exact rhs_col _ _)
  rw [el, er]

/-! ## The payloads -/

/-- The first body's stored value at `(p, q)`. -/
theorem pay_scaled_apply (a : Vec Ideal S4000x128 .f32) (u : Vec Ideal S4000x1 .f32) (w : Vec Ideal S128x128 .f32)
    (b : Vec Ideal S1x128 .f32) (v : Vec Ideal S4000x1 .f32) (p : Fin 4000) (q : Fin 128) :
    k0_pay1 a u w b v (ix2 p q)
      = ((∑ k : Fin 128, a (ix2 p k) * u (ix2 p (0 : Fin 1)) * w (ix2 k q)) + b (ix2 (0 : Fin 1) q)) * v (ix2 p (0 : Fin 1)) := by
  unfold k0_pay1
  rw [mulf_apply, addf_apply, matmul_apply, column_apply, row_apply]
  simp only [shapeCast_self, truncf_apply, mulf_apply, column_apply]

/-- The second body's stored value at `(p, q)`. -/
theorem pay_apply (a : Vec Ideal S4000x128 .f32) (u : Vec Ideal S4000x1 .f32) (w : Vec Ideal S128x128 .f32)
    (b : Vec Ideal S1x128 .f32) (p : Fin 4000) (q : Fin 128) :
    k1_pay1 a u w b (ix2 p q)
      = (∑ k : Fin 128, a (ix2 p k) * u (ix2 p (0 : Fin 1)) * w (ix2 k q)) + b (ix2 (0 : Fin 1) q) := by
  unfold k1_pay1
  rw [addf_apply, matmul_apply, row_apply]
  simp only [shapeCast_self, truncf_apply, mulf_apply, column_apply]

end Cert.Body

end
-- ==== Proof.Blocks.lean ====
/-
  From blocks to arrays: each region's output array, after the region, is the dense-layer function of the arrays the
  region finds at its entry.

  Both regions tile the 100000 nodes into 25 blocks of 4000: at grid point `t` the node-indexed windows (the
  aggregated sums, the degree columns, the output) hold rows `4000·t … 4000·t + 3999`, and the weights and the bias row
  are whole at every point. So entry `(p, q)` of what point `t` writes back is the layer function at node
  `4000·t + p`, feature `q`, of the entry arrays; the 25 blocks cover every node (node `r` is in block `r / 4000`),
  hence the array after the region is that function everywhere.
-/
import proofs.«143853_j52501680226728_2_alg».proof.Proof.Gen.KernelIdeal.Frame
import proofs.«143853_j52501680226728_2_alg».proof.Proof.Body
import proofs.«143853_j52501680226728_2_alg».proof.Proof.Layer
import Idealize.ShloMosaic.Lib.Pipeline.Value

set_option maxRecDepth 16384

noncomputable section

namespace Cert.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layer

variable (V : (c : Dev nD) → (b : Ref sig .tc) → Buf (Elt Ideal) ((c : Thread nD τ).loc b))

theorem origin : (![0, 0] : Fin 2 → Nat) = fun _ => 0 := funext fun a => by fin_cases a <;> rfl

/-! # The first region -/

/-- The printed index maps over the grid: a node-indexed window's block index is the point, every other is zero. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node that row `p` of point `t`'s block is. -/
def node0 (t : Fin cfg0.N) (p : Fin 4000) : Fin 100000 :=
  ⟨t.val * 4000 + p.val, by
    have ht : t.val < 25 := lt_of_lt_of_eq t.isLt N_0
    have hp := p.isLt
    omega⟩

/-! ## Where a block's entry sits in its array -/

theorem emb0_0 (t : Fin cfg0.N) (p : Fin 4000) (k : Fin 128) :
    ((cfg0.win 0).blk t).view.emb (ix2 p k) = (ix2 (node0 t p) k : S100000x128.Idx) := by
  obtain ⟨e0, e1, -⟩ := index0 t
  funext a; apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega
theorem emb0_1 (t : Fin cfg0.N) (p : Fin 4000) :
    ((cfg0.win 1).blk t).view.emb (ix2 p (0 : Fin 1)) = (ix2 (node0 t p) (0 : Fin 1) : S100000x1.Idx) := by
  obtain ⟨-, -, e0, e1, -⟩ := index0 t
  funext a; apply Fin.ext
  match a with
  | ⟨0, _⟩ => show win0_1.index t (0 : Fin 2) * 4000 + 1 * p.val = t.val * 4000 + p.val; omega
  | ⟨1, _⟩ => show win0_1.index t (1 : Fin 2) * 1 + 1 * 0 = 0; omega
theorem emb0_2 (t : Fin cfg0.N) (p : Fin 4000) :
    ((cfg0.win 2).blk t).view.emb (ix2 p (0 : Fin 1)) = (ix2 (node0 t p) (0 : Fin 1) : S100000x1.Idx) := by
  obtain ⟨-, -, -, -, e0, e1, -⟩ := index0 t
  funext a; apply Fin.ext
  match a with
  | ⟨0, _⟩ => show win0_2.index t (0 : Fin 2) * 4000 + 1 * p.val = t.val * 4000 + p.val; omega
  | ⟨1, _⟩ => show win0_2.index t (1 : Fin 2) * 1 + 1 * 0 = 0; omega
theorem emb0_3 (t : Fin cfg0.N) (k q : Fin 128) :
    ((cfg0.win 3).blk t).view.emb (ix2 k q) = (ix2 k q : S128x128.Idx) := by
  obtain ⟨-, -, -, -, -, -, e0, e1, -⟩ := index0 t
  funext a; apply Fin.ext
  match a with
  | ⟨0, _⟩ => show win0_3.index t (0 : Fin 2) * 128 + 1 * k.val = k.val; omega
  | ⟨1, _⟩ => show win0_3.index t (1 : Fin 2) * 128 + 1 * q.val = q.val; omega
theorem emb0_4 (t : Fin cfg0.N) (q : Fin 128) :
    ((cfg0.win 4).blk t).view.emb (ix2 (0 : Fin 1) q) = (ix2 (0 : Fin 1) q : S1x128.Idx) := by
  obtain ⟨-, -, -, -, -, -, -, -, e0, e1, -⟩ := index0 t
  funext a; apply Fin.ext
  match a with
  | ⟨0, _⟩ => show win0_4.index t (0 : Fin 2) * 1 + 1 * 0 = 0; omega
  | ⟨1, _⟩ => show win0_4.index t (1 : Fin 2) * 128 + 1 * q.val = q.val; omega
theorem emb0_5 (t : Fin cfg0.N) (p : Fin 4000) (q : Fin 128) :
    ((cfg0.win 5).blk t).view.emb (ix2 p q) = (ix2 (node0 t p) q : S100000x128.Idx) := by
  obtain ⟨-, -, -, -, -, -, -, -, -, -, e0, e1⟩ := index0 t
  funext a; apply Fin.ext
  match a with
  | ⟨0, _⟩ => show win0_5.index t (0 : Fin 2) * 4000 + 1 * p.val = t.val * 4000 + p.val; omega
  | ⟨1, _⟩ => show win0_5.index t (1 : Fin 2) * 128 + 1 * q.val = q.val; omega

/-- What point `t` writes back is block `t` of the scaled dense layer of the entry arrays. -/
theorem flushed0 (c : Dev nD) (t : Fin cfg0.N) :
    (dat0 V c).flushed 5 t = ((cfg0.win 5).blk t).view.read (Elt Ideal)
      (denseScaled (V c main_v31) (V c main_v17) (V c main_v13) (V c main_arg3) (V c main_v32)) := by
  show (cfg0.win 5).cut (grid0.coords t) ((dat0 V c).after 5 t) = _
  rw [after0_5]
  unfold out0_5
  rw [View.canon_unit_zero origin]
  simp only [View.ld_unit_zero (S := S4000x128) origin, View.ld_unit_zero (S := S4000x1) origin,
    View.ld_unit_zero (S := S128x128) origin, View.ld_unit_zero (S := S1x128) origin]
  refine funext fun (j : S4000x128.Idx) => ?_
  obtain ⟨p, q, rfl⟩ : ∃ (p : Fin 4000) (q : Fin 128), j = ix2 p q := ⟨j 0, j 1, eq_ix2 j⟩
  show k0_pay1 (iblk0 V c 0 t) (iblk0 V c 1 t) (iblk0 V c 3 t) (iblk0 V c 4 t) (iblk0 V c 2 t) (ix2 p q)
    = denseScaled (V c main_v31) (V c main_v17) (V c main_v13) (V c main_arg3) (V c main_v32)
        (((cfg0.win 5).blk t).view.emb (ix2 p q))
  rw [emb0_5 t p q]
  refine (Cert.Body.pay_scaled_apply (iblk0 V c 0 t) (iblk0 V c 1 t) (iblk0 V c 3 t) (iblk0 V c 4 t) (iblk0 V c 2 t) p q).trans ?_
  have h0 : ∀ k : Fin 128, iblk0 V c 0 t (ix2 p k) = V c main_v31 (ix2 (node0 t p) k) :=
    fun k => congrArg (V c main_v31) (emb0_0 t p k)
  have h1 : iblk0 V c 1 t (ix2 p (0 : Fin 1)) = V c main_v17 (ix2 (node0 t p) (0 : Fin 1)) :=
    congrArg (V c main_v17) (emb0_1 t p)
  have h2 : iblk0 V c 2 t (ix2 p (0 : Fin 1)) = V c main_v13 (ix2 (node0 t p) (0 : Fin 1)) :=
    congrArg (V c main_v13) (emb0_2 t p)
  have h3 : ∀ k : Fin 128, iblk0 V c 3 t (ix2 k q) = V c main_arg3 (ix2 k q) :=
    fun k => congrArg (V c main_arg3) (emb0_3 t k q)
  have h4 : iblk0 V c 4 t (ix2 (0 : Fin 1) q) = V c main_v32 (ix2 (0 : Fin 1) q) :=
    congrArg (V c main_v32) (emb0_4 t q)
  show _ = denseAt (V c main_v31) (V c main_v17) (V c main_arg3) (V c main_v32) (node0 t p) q
      * V c main_v13 (ix2 (node0 t p) (0 : Fin 1))
  unfold denseAt
  rw [h1, h2, h4]
  refine congrArg₂ (· * ·) (congrArg₂ (· + ·) (Finset.sum_congr rfl fun k _ => ?_) rfl) rfl
  rw [h0 k, h3 k]

/-- An index of the output array is in point `t`'s block iff each coordinate is in the block's range. -/
theorem mem_blk0 (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v33).slice (win0_5.rect t)).set ↔ _
  rw [View.set_slice_whole, Rect.mem_set_unit]
  exact Iff.rfl

/-- Every node is in some point's block: node `r` in block `r / 4000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 25 := N_0
  obtain ⟨t, ht⟩ : ∃ t : Fin cfg0.N, t.val = (i 0).val / 4000 :=
    ⟨⟨(i 0).val / 4000, by show (i 0).val / 4000 < grid0.N; omega⟩, rfl⟩
  refine ⟨t, flush0_5 t, ?_⟩
  rw [mem_blk0]
  obtain ⟨-, -, -, -, -, -, -, -, -, -, e0, e1⟩ := index0 t
  intro a
  match a with
  | ⟨0, _⟩ =>
    show win0_5.index t (0 : Fin 2) * 4000 ≤ (i 0).val ∧ (i 0).val < win0_5.index t (0 : Fin 2) * 4000 + 4000
    omega
  | ⟨1, _⟩ =>
    show win0_5.index t (1 : Fin 2) * 128 ≤ (i 1).val ∧ (i 1).val < win0_5.index t (1 : Fin 2) * 128 + 128
    omega

/-- The first region's output array, after the region: the scaled dense layer of the entry arrays. -/
theorem final0 (c : Dev nD) :
    (dat0 V c).arrAt 5 cfg0.N
      = denseScaled (V c main_v31) (V c main_v17) (V c main_v13) (V c main_arg3) (V c main_v32) :=
  (dat0 V c).arrAt_eq_of_cover 5 _ (fun t _ => flushed0 V c t) cover0

/-! # The second region -/

theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

def node1 (t : Fin cfg1.N) (p : Fin 4000) : Fin 100000 :=
  ⟨t.val * 4000 + p.val, by
    have ht : t.val < 25 := lt_of_lt_of_eq t.isLt N_1
    have hp := p.isLt
    omega⟩

theorem emb1_0 (t : Fin cfg1.N) (p : Fin 4000) (k : Fin 128) :
    ((cfg1.win 0).blk t).view.emb (ix2 p k) = (ix2 (node1 t p) k : S100000x128.Idx) := by
  obtain ⟨e0, e1, -⟩ := index1 t
  funext a; apply Fin.ext
  match a with
  | ⟨0, _⟩ => show win1_0.index t (0 : Fin 2) * 4000 + 1 * p.val = t.val * 4000 + p.val; omega
  | ⟨1, _⟩ => show win1_0.index t (1 : Fin 2) * 128 + 1 * k.val = k.val; omega
theorem emb1_1 (t : Fin cfg1.N) (p : Fin 4000) :
    ((cfg1.win 1).blk t).view.emb (ix2 p (0 : Fin 1)) = (ix2 (node1 t p) (0 : Fin 1) : S100000x1.Idx) := by
  obtain ⟨-, -, e0, e1, -⟩ := index1 t
  funext a; apply Fin.ext
  match a with
  | ⟨0, _⟩ => show win1_1.index t (0 : Fin 2) * 4000 + 1 * p.val = t.val * 4000 + p.val; omega
  | ⟨1, _⟩ => show win1_1.index t (1 : Fin 2) * 1 + 1 * 0 = 0; omega
theorem emb1_2 (t : Fin cfg1.N) (k q : Fin 128) :
    ((cfg1.win 2).blk t).view.emb (ix2 k q) = (ix2 k q : S128x128.Idx) := by
  obtain ⟨-, -, -, -, e0, e1, -⟩ := index1 t
  funext a; apply Fin.ext
  match a with
  | ⟨0, _⟩ => show win1_2.index t (0 : Fin 2) * 128 + 1 * k.val = k.val; omega
  | ⟨1, _⟩ => show win1_2.index t (1 : Fin 2) * 128 + 1 * q.val = q.val; omega
theorem emb1_3 (t : Fin cfg1.N) (q : Fin 128) :
    ((cfg1.win 3).blk t).view.emb (ix2 (0 : Fin 1) q) = (ix2 (0 : Fin 1) q : S1x128.Idx) := by
  obtain ⟨-, -, -, -, -, -, e0, e1, -⟩ := index1 t
  funext a; apply Fin.ext
  match a with
  | ⟨0, _⟩ => show win1_3.index t (0 : Fin 2) * 1 + 1 * 0 = 0; omega
  | ⟨1, _⟩ => show win1_3.index t (1 : Fin 2) * 128 + 1 * q.val = q.val; omega
theorem emb1_4 (t : Fin cfg1.N) (p : Fin 4000) (q : Fin 128) :
    ((cfg1.win 4).blk t).view.emb (ix2 p q) = (ix2 (node1 t p) q : S100000x128.Idx) := by
  obtain ⟨-, -, -, -, -, -, -, -, e0, e1⟩ := index1 t
  funext a; apply Fin.ext
  match a with
  | ⟨0, _⟩ => show win1_4.index t (0 : Fin 2) * 4000 + 1 * p.val = t.val * 4000 + p.val; omega
  | ⟨1, _⟩ => show win1_4.index t (1 : Fin 2) * 128 + 1 * q.val = q.val; omega

/-- What point `t` writes back is block `t` of the dense layer of the entry arrays. -/
theorem flushed1 (c : Dev nD) (t : Fin cfg1.N) :
    (dat1 V c).flushed 4 t = ((cfg1.win 4).blk t).view.read (Elt Ideal)
      (dense (V c main_v45) (V c main_v17) (V c main_arg5) (V c main_v46)) := by
  show (cfg1.win 4).cut (grid1.coords t) ((dat1 V c).after 4 t) = _
  rw [after1_4]
  unfold out1_4
  rw [View.canon_unit_zero origin]
  simp only [View.ld_unit_zero (S := S4000x128) origin, View.ld_unit_zero (S := S4000x1) origin,
    View.ld_unit_zero (S := S128x128) origin, View.ld_unit_zero (S := S1x128) origin]
  refine funext fun (j : S4000x128.Idx) => ?_
  obtain ⟨p, q, rfl⟩ : ∃ (p : Fin 4000) (q : Fin 128), j = ix2 p q := ⟨j 0, j 1, eq_ix2 j⟩
  show k1_pay1 (iblk1 V c 0 t) (iblk1 V c 1 t) (iblk1 V c 2 t) (iblk1 V c 3 t) (ix2 p q)
    = dense (V c main_v45) (V c main_v17) (V c main_arg5) (V c main_v46) (((cfg1.win 4).blk t).view.emb (ix2 p q))
  rw [emb1_4 t p q]
  refine (Cert.Body.pay_apply (iblk1 V c 0 t) (iblk1 V c 1 t) (iblk1 V c 2 t) (iblk1 V c 3 t) p q).trans ?_
  have h0 : ∀ k : Fin 128, iblk1 V c 0 t (ix2 p k) = V c main_v45 (ix2 (node1 t p) k) :=
    fun k => congrArg (V c main_v45) (emb1_0 t p k)
  have h1 : iblk1 V c 1 t (ix2 p (0 : Fin 1)) = V c main_v17 (ix2 (node1 t p) (0 : Fin 1)) :=
    congrArg (V c main_v17) (emb1_1 t p)
  have h2 : ∀ k : Fin 128, iblk1 V c 2 t (ix2 k q) = V c main_arg5 (ix2 k q) :=
    fun k => congrArg (V c main_arg5) (emb1_2 t k q)
  have h3 : iblk1 V c 3 t (ix2 (0 : Fin 1) q) = V c main_v46 (ix2 (0 : Fin 1) q) :=
    congrArg (V c main_v46) (emb1_3 t q)
  show _ = denseAt (V c main_v45) (V c main_v17) (V c main_arg5) (V c main_v46) (node1 t p) q
  unfold denseAt
  rw [h1, h3]
  refine congrArg₂ (· + ·) (Finset.sum_congr rfl fun k _ => ?_) rfl
  rw [h0 k, h2 k]

theorem mem_blk1 (t : Fin cfg1.N) (i : S100000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v47).slice (win1_4.rect t)).set ↔ _
  rw [View.set_slice_whole, Rect.mem_set_unit]
  exact Iff.rfl

theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 25 := N_1
  obtain ⟨t, ht⟩ : ∃ t : Fin cfg1.N, t.val = (i 0).val / 4000 :=
    ⟨⟨(i 0).val / 4000, by show (i 0).val / 4000 < grid1.N; omega⟩, rfl⟩
  refine ⟨t, flush1_4 t, ?_⟩
  rw [mem_blk1]
  obtain ⟨-, -, -, -, -, -, -, -, e0, e1⟩ := index1 t
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 128 ≤ (i 1).val ∧ (i 1).val < win1_4.index t (1 : Fin 2) * 128 + 128
    omega

/-- The second region's output array, after the region: the dense layer of the entry arrays. -/
theorem final1 (c : Dev nD) :
    (dat1 V c).arrAt 4 cfg1.N = dense (V c main_v45) (V c main_v17) (V c main_arg5) (V c main_v46) :=
  (dat1 V c).arrAt_eq_of_cover 4 _ (fun t _ => flushed1 V c t) cover1

end Cert.Blocks

end
-- ==== Proof.HostRead.lean ====
/-
  The host operations around the two regions, read back: what each region finds at its entry, and hence what the
  kernel returns, in terms of the reference's own stages.

  Before the first region the wrapper computes the same degree factors and the same first aggregation as the
  reference (a scatter-add of the gathered rows of `x · nout`), with a column spelled as a reshape and the gathered
  table passed through bf16 and back — neither changes a value on the extended reals. Between the regions it gathers
  and scatter-adds the first region's output in the same way. So the first region is entered at the reference's
  aggregated sums and degree columns and leaves the reference's first-layer stage; the second region is entered at the
  reference's second aggregated sums and leaves the reference's result.
-/
import proofs.«143853_j52501680226728_2_alg».proof.Proof.Gen.KernelIdeal.Frame
import proofs.«143853_j52501680226728_2_alg».proof.Proof.Gen.ReferenceIdeal.Read
import proofs.«143853_j52501680226728_2_alg».proof.Proof.Spelling
import proofs.«143853_j52501680226728_2_alg».proof.Proof.Layer
import proofs.«143853_j52501680226728_2_alg».proof.Proof.RefLayer
import proofs.«143853_j52501680226728_2_alg».proof.Proof.Blocks
import proofs.«143853_j52501680226728_2_alg».proof.Proof.KRun
import Idealize.ShloMosaic.Lib.StableHlo.Run

set_option maxRecDepth 16384

noncomputable section

namespace Cert.HostRead

open Idealize.ShloMosaic Idealize.ShloMosaic.TcCoe Idealize.SL.Sem Idealize.ShloMosaic.StableHlo
open Cert.KernelIdeal Cert.KernelIdeal.Gen Cert.Layer
open Cert.ReferenceIdeal.Read (val_main_v1 val_main_v2 val_main_v12 val_main_v13 val_main_v17 val_main_v25 val_main_v27 val_main_v28
  val_main_v29 val_main_v33 val_main_v37 val_main_v47 val_main_v51 val_main_v53)

variable (m : (ℓ : Loc nD τ sig) → Buf (Elt Ideal) ℓ) (ρ : Dev nD → PrngReg) (c : Dev nD)

/-! ## Before the first region -/

/-- The edge sources with the self loops appended. -/
theorem src_eq : @Eq (S1700000.Idx → BitVec 32) (W1 m ρ c (Proc.devRef .tc main_v1)) (val_main_v1 (F := Ideal) (m ((c : Thread nD τ).loc main_arg1))) := by
  show StableHlo.after hostOps0 (W0 m ρ c) (Proc.devRef .tc main_v1) = _
  after_results
  rfl

/-- The edge destinations with the self loops appended. -/
theorem dst_eq : @Eq (S1700000.Idx → BitVec 32) (W1 m ρ c (Proc.devRef .tc main_v2)) (val_main_v2 (F := Ideal) (m ((c : Thread nD τ).loc main_arg2))) := by
  show StableHlo.after hostOps0 (W0 m ρ c) (Proc.devRef .tc main_v2) = _
  after_results
  rfl

/-- The destination-side degree column. -/
theorem nin_eq : @Eq (S100000x1.Idx → EReal) (V1 m ρ c main_v17) (val_main_v17 (F := Ideal) (m ((c : Thread nD τ).loc main_arg2))) := by
  show StableHlo.after hostOps0 (W0 m ρ c) (Proc.devRef .tc main_v17) = _
  after_results
  exact Cert.Spelling.column_eq (a := 100000) (by decide) _ _ _

/-- The source-side degree column. -/
theorem nout_eq : @Eq (S100000x1.Idx → EReal) (V1 m ρ c main_v13) (val_main_v13 (F := Ideal) (m ((c : Thread nD τ).loc main_arg1))) := by
  show StableHlo.after hostOps0 (W0 m ρ c) (Proc.devRef .tc main_v13) = _
  after_results
  exact Cert.Spelling.column_eq (a := 100000) (by decide) _ _ _

/-- The first bias as a row. -/
theorem bias1_eq : @Eq (S1x128.Idx → EReal) (V1 m ρ c main_v32) (val_main_v33 (F := Ideal) (m ((c : Thread nD τ).loc main_arg4))) := by
  show StableHlo.after hostOps0 (W0 m ρ c) (Proc.devRef .tc main_v32) = _
  after_results
  exact Cert.Spelling.row_eq (a := 128) (by decide) _ _ _

/-- The first weights: an argument, untouched. -/
theorem w1_eq : @Eq (S128x128.Idx → EReal) (V1 m ρ c main_arg3) (m ((c : Thread nD τ).loc main_arg3)) := by
  show StableHlo.after hostOps0 (W0 m ρ c) (Proc.devRef .tc main_arg3) = _
  after_results

/-- The second weights and bias: arguments, untouched by the operations before the first region. -/
theorem w2_pre : @Eq (S128x128.Idx → EReal) (W1 m ρ c (Proc.devRef .tc main_arg5)) (m ((c : Thread nD τ).loc main_arg5)) := by
  show StableHlo.after hostOps0 (W0 m ρ c) (Proc.devRef .tc main_arg5) = _
  after_results
theorem b2_pre : @Eq (S128.Idx → EReal) (W1 m ρ c (Proc.devRef .tc main_arg6)) (m ((c : Thread nD τ).loc main_arg6)) := by
  show StableHlo.after hostOps0 (W0 m ρ c) (Proc.devRef .tc main_arg6) = _
  after_results

/-- The first aggregation as a function of the source-side column `N`: scatter-add, by destination, of the gathered
    rows of `x · N`. -/
def agg1Of (N : FVec Ideal Cert.ReferenceIdeal.S100000x1 .f32) : FVec Ideal Cert.ReferenceIdeal.S100000x128 .f32 :=
  Host.scatterAdd (F := Ideal) (φ := .f32) Cert.ReferenceIdeal.scatter_S100000x128_S1700000x1_S1700000x128_1_0_0_1 (val_main_v27 (F := Ideal))
    (val_main_v28 (F := Ideal) (m ((c : Thread nD τ).loc main_arg2)))
    (Host.gather Cert.ReferenceIdeal.gather_S100000x128_S1700000x1_S1700000x128_1_0_n_n_0_1_1128
      (mulf (F := Ideal) (φ := .f32) (m ((c : Thread nD τ).loc main_arg0)) (broadcastInDim Cert.ReferenceIdeal.S100000x128 ![0, 1] Cert.ReferenceIdeal.Facts₀.bcast_S100000x1_S100000x128_0_1 N))
      (val_main_v25 (F := Ideal) (m ((c : Thread nD τ).loc main_arg1))))

set_option maxHeartbeats 8000000 in
/-- The first aggregated sums. -/
theorem agg1_eq : @Eq (S100000x128.Idx → EReal) (V1 m ρ c main_v31)
    (val_main_v29 (F := Ideal) (m ((c : Thread nD τ).loc main_arg0)) (m ((c : Thread nD τ).loc main_arg1)) (m ((c : Thread nD τ).loc main_arg2))) := by
  show StableHlo.after hostOps0 (W0 m ρ c) (Proc.devRef .tc main_v31) = _
  after_results
  exact congrArg (agg1Of m c) (Cert.Spelling.column_eq (a := 100000) (by decide) (val_main_v12 (F := Ideal) (m ((c : Thread nD τ).loc main_arg1))) _ _)

/-! ## The first region's output, and between the regions -/

/-- The first region leaves the reference's first-layer stage (pre-multiplied by the source-side factor). -/
theorem mid_eq : @Eq (S100000x128.Idx → EReal) (W2 m ρ c (Proc.devRef .tc main_v33))
    (val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  refine (Cert.KernelIdeal.Named.mid_eq m ρ c).trans ((Cert.Blocks.final0 (V1 m ρ) c).trans ?_)
  rw [agg1_eq m ρ c, nin_eq m ρ c, nout_eq m ρ c, w1_eq m ρ c, bias1_eq m ρ c]
  exact (Cert.RefLayer.stage1 _ _ _ _ _).symm

/-- The first region does not write the edge lists, the destination-side column, or the second layer's arguments. -/
theorem src_mid : @Eq (S1700000.Idx → BitVec 32) (W2 m ρ c (Proc.devRef .tc main_v1)) (val_main_v1 (F := Ideal) (m ((c : Thread nD τ).loc main_arg1))) :=
  (W2_of_ne m ρ c main_v1 (by decide)).trans (src_eq m ρ c)
theorem dst_mid : @Eq (S1700000.Idx → BitVec 32) (W2 m ρ c (Proc.devRef .tc main_v2)) (val_main_v2 (F := Ideal) (m ((c : Thread nD τ).loc main_arg2))) :=
  (W2_of_ne m ρ c main_v2 (by decide)).trans (dst_eq m ρ c)
theorem w2_mid : @Eq (S128x128.Idx → EReal) (W2 m ρ c (Proc.devRef .tc main_arg5)) (m ((c : Thread nD τ).loc main_arg5)) :=
  (W2_of_ne m ρ c main_arg5 (by decide)).trans (w2_pre m ρ c)
theorem b2_mid : @Eq (S128.Idx → EReal) (W2 m ρ c (Proc.devRef .tc main_arg6)) (m ((c : Thread nD τ).loc main_arg6)) :=
  (W2_of_ne m ρ c main_arg6 (by decide)).trans (b2_pre m ρ c)
/-- The destination-side column is an input window of the first region: its array is as the region found it. -/
theorem nin_mid : @Eq (S100000x1.Idx → EReal) (W2 m ρ c (Proc.devRef .tc main_v17)) (val_main_v17 (F := Ideal) (m ((c : Thread nD τ).loc main_arg2))) :=
  ((W2_arr m ρ c 1).trans (((dat0 (V1 m ρ) c).arrAt_in 1 rfl _).trans (A_eq0 (V1 m ρ) c 1))).trans (nin_eq m ρ c)

/-! ## At the second region's entry -/

set_option maxHeartbeats 8000000 in
/-- The second aggregated sums: scatter-add, by destination, of the gathered rows of the first region's output. -/
theorem agg2_eq : @Eq (S100000x128.Idx → EReal) (V3 m ρ c main_v45)
    (val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1 (W2 m ρ c) (Proc.devRef .tc main_v45) = _
  after_results
  rw [mid_eq m ρ c, src_mid m ρ c, dst_mid m ρ c]
  rfl

theorem nin2_eq : @Eq (S100000x1.Idx → EReal) (V3 m ρ c main_v17) (val_main_v17 (F := Ideal) (m ((c : Thread nD τ).loc main_arg2))) := by
  show StableHlo.after hostOps1 (W2 m ρ c) (Proc.devRef .tc main_v17) = _
  after_results
  exact nin_mid m ρ c

theorem w2_eq : @Eq (S128x128.Idx → EReal) (V3 m ρ c main_arg5) (m ((c : Thread nD τ).loc main_arg5)) := by
  show StableHlo.after hostOps1 (W2 m ρ c) (Proc.devRef .tc main_arg5) = _
  after_results
  exact w2_mid m ρ c

/-- The second bias as a row. -/
theorem bias2_eq : @Eq (S1x128.Idx → EReal) (V3 m ρ c main_v46) (val_main_v51 (F := Ideal) (m ((c : Thread nD τ).loc main_arg6))) := by
  show StableHlo.after hostOps1 (W2 m ρ c) (Proc.devRef .tc main_v46) = _
  after_results
  rw [b2_mid m ρ c]
  exact Cert.Spelling.row_eq (a := 128) (by decide) _ _ _

/-! ## The kernel's result -/

/-- The result buffer ends at the reference's last stage of the arguments. -/
theorem result : @Eq (S100000x128.Idx → EReal) (W4 m ρ c (Proc.devRef .tc main_v47))
    (val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (Cert.KernelIdeal.Named.result_eq m ρ c).trans ((Cert.Blocks.final1 (V3 m ρ) c).trans ?_)
  rw [agg2_eq m ρ c, nin2_eq m ρ c, w2_eq m ρ c, bias2_eq m ρ c]
  exact (Cert.RefLayer.stage2 _ _ _ _ _ _ _).symm

end Cert.HostRead

end
-- ==== Proof.lean ====
/-
  The certificate of a two-layer graph convolution: a Pallas kernel for each layer's dense stage, with the sparse
  aggregation left to the host, against the plain jnp reference.

  Both programs compute, per layer, `(segment_sum((h · nout)[s], d) · nin) @ W + b` with the same edge lists
  `s`, `d` (self loops appended) and the same degree factors `nout`, `nin = rsqrt(max(degree, 1))`. They differ only in
  where the dense stage runs (tiled over 25 blocks of 4000 nodes inside two kernel regions, with a bf16 matrix product
  accumulated in f32, against one whole `dot_general`), in two spellings of a keepdims axis (a reshape against a
  broadcast), and in a bf16 round trip around each gather. On the extended reals a change of float format is the
  identity and a matrix product is the plain sum over the contracted axis, so both programs are the same function of
  the arguments, entry by entry; no finiteness of the inputs is used.

  The modules: `Layer` states the dense stage as one function of whole arrays; `Body` reads the kernel bodies'
  payloads at an entry; `Blocks` goes from the 25 written-back blocks to each region's whole output array; `RefLayer`
  reads the reference's dense stages at an entry; `Spelling` equates the two spellings; `KRun` is the kernel's run
  with its result read off; `HostRead` reads the host operations around the regions and concludes that the kernel's
  result is the reference's last stage. The three frames are the generated ones; the idealization rewrote no
  operation, so its claim is trivial.
-/
import proofs.«143853_j52501680226728_2_alg».proof.Defs
import proofs.«143853_j52501680226728_2_alg».proof.Proof.Gen.Kernel
import proofs.«143853_j52501680226728_2_alg».proof.Proof.Gen.Kernel.Skeleton
import proofs.«143853_j52501680226728_2_alg».proof.Proof.Gen.Kernel.Launch
import proofs.«143853_j52501680226728_2_alg».proof.Proof.Gen.Kernel.Points
import proofs.«143853_j52501680226728_2_alg».proof.Proof.Gen.Kernel.Frame
import proofs.«143853_j52501680226728_2_alg».proof.Proof.Gen.KernelIdeal
import proofs.«143853_j52501680226728_2_alg».proof.Proof.Gen.KernelIdeal.Skeleton
import proofs.«143853_j52501680226728_2_alg».proof.Proof.Gen.KernelIdeal.Launch
import proofs.«143853_j52501680226728_2_alg».proof.Proof.Gen.KernelIdeal.Points
import proofs.«143853_j52501680226728_2_alg».proof.Proof.Gen.KernelIdeal.Frame
import proofs.«143853_j52501680226728_2_alg».proof.Proof.Gen.ReferenceIdeal
import proofs.«143853_j52501680226728_2_alg».proof.Proof.Gen.Pre_finite_inputs
import proofs.«143853_j52501680226728_2_alg».proof.Proof.Gen.ReferenceIdeal.Run
import proofs.«143853_j52501680226728_2_alg».proof.Proof.Gen.ReferenceIdeal.Read
import proofs.«143853_j52501680226728_2_alg».proof.Proof.KRun
import proofs.«143853_j52501680226728_2_alg».proof.Proof.HostRead
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to state. -/
theorem preserves : Cert.preserves_Kernel_KernelIdeal := trivial

/-- From memories agreeing on the arguments both programs end at the reference's last stage of the kernel's
    arguments: the kernel by its run and the reading of its host operations and regions, the reference by its run. -/
theorem algebraic : Cert.algebraic_KernelIdeal_ReferenceIdeal := by
  intro m ρ m' ρ' _ hagree
  refine ⟨fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.HostRead.result m ρ c), (h c).2⟩) (Cert.KernelIdeal.Named.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
